-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 70
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S1x128, .f32⟩
  | .hbm, ⟨31, _⟩ => ⟨S1x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S100000x128, .f32⟩
  | .hbm, ⟨49, _⟩ => ⟨S_, .f32⟩
  | .hbm, ⟨50, _⟩ => ⟨S256x128, .f32⟩
  | .hbm, ⟨51, _⟩ => ⟨S100000x1, .i32⟩
  | .hbm, ⟨52, _⟩ => ⟨S256x128, .f32⟩
  | .hbm, ⟨53, _⟩ => ⟨S_, .f32⟩
  | .hbm, ⟨54, _⟩ => ⟨S100000, .f32⟩
  | .hbm, ⟨55, _⟩ => ⟨S_, .f32⟩
  | .hbm, ⟨56, _⟩ => ⟨S256, .f32⟩
  | .hbm, ⟨57, _⟩ => ⟨S100000x1, .i32⟩
  | .hbm, ⟨58, _⟩ => ⟨S256, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S256x1, .f32⟩
  | .hbm, ⟨63, _⟩ => ⟨S256x128, .f32⟩
  | .hbm, ⟨64, _⟩ => ⟨S256x128, .f32⟩
  | .hbm, ⟨65, _⟩ => ⟨S256x1, .f32⟩
  | .hbm, ⟨66, _⟩ => ⟨S1x1, .f32⟩
  | .hbm, ⟨67, _⟩ => ⟨S256x1, .f32⟩
  | .hbm, ⟨68, _⟩ => ⟨S256x1, .f32⟩
  | .hbm, ⟨69, _⟩ => ⟨S256, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S256x128, .f32⟩
  | .hbm, ⟨75, _⟩ => ⟨S100000x1, .i32⟩
  | .hbm, ⟨76, _⟩ => ⟨S256x128, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S256, .f32⟩
  | .hbm, ⟨81, _⟩ => ⟨S100000x1, .i32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S256x1, .f32⟩
  | .hbm, ⟨87, _⟩ => ⟨S256x128, .f32⟩
  | .hbm, ⟨88, _⟩ => ⟨S256x128, .f32⟩
  | .hbm, ⟨89, _⟩ => ⟨S256x1, .f32⟩
  | .hbm, ⟨90, _⟩ => ⟨S1x1, .f32⟩
  | .hbm, ⟨91, _⟩ => ⟨S256x1, .f32⟩
  | .hbm, ⟨92, _⟩ => ⟨S256x1, .f32⟩
  | .hbm, ⟨93, _⟩ => ⟨S256, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call3_cst : Ref sig .tc := ⟨.hbm, 70, rfl⟩
abbrev main_call3_v0 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.RunValue.lean ====
/-
  The idealized kernel's run with its result named.

  @main is five segments: host operations, the first layer's pallas_call, host operations, the second layer's
  pallas_call, host operations. The buffer contents at each boundary are a fold from the launch memory (the generated
  frame's `W0 … W5`), and every weakly fair execution ends with each unscoped buffer at the last boundary's
  contents. Read at the arguments that is the frame; read at the result buffer it says the result IS the last
  boundary's contents there, which the value modules then compute.
-/
import proofs.«116678_j55585466744867_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v46) = W5 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v46 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.RunValue

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Layer.lean ====
/-
  One row of a two-layer perceptron with rectifiers, on the extended reals.

  For a row `z` of `D` numbers, weights `w1` (`D × H`) and `w2` (`H × C`) and biases `b1`, `b2`, the entry `q` of
  the result is
      max (Σ_k max (Σ_j z j · w1 j k + b1 k) 0 · w2 k q + b2 q) 0.
  Both programs compute exactly this sum for every row of the node array: the kernel on blocks of rows, the
  reference on the whole array. The zero is the value of the all-zero 32-bit word, the same word on both sides, so
  it is never evaluated.
-/
import Idealize.ShloMosaic.PureOps.Ideal
import Idealize.ShloMosaic.Lib.ValueIdx

noncomputable section

open scoped BigOperators

namespace Cert.Layer

open Idealize.ShloMosaic

/-- The value of the all-zero single-precision word. -/
abbrev zeroW : EReal := Ideal.ofBits .f32 0x00000000#32

/-- Entry `q` of the perceptron's result on the row `z`. -/
def mlpRow {D H C : ℕ} (z : Fin D → EReal) (w1 : Fin D → Fin H → EReal) (b1 : Fin H → EReal)
    (w2 : Fin H → Fin C → EReal) (b2 : Fin C → EReal) (q : Fin C) : EReal :=
  max ((∑ k : Fin H, max ((∑ j : Fin D, z j * w1 j k) + b1 k) zeroW * w2 k q) + b2 q) zeroW

end Cert.Layer

end
-- ==== Proof.BodyValue.lean ====
/-
  What one grid point of each kernel stores, read at an index.

  The body adds the block of node features and the block of neighbour sums, multiplies by `w1` on the matrix unit
  (the narrowing of the operands to half precision is the identity on the extended reals), adds the bias row
  stretched over the block's rows, rectifies, and does the same again with `w2`. Read at row `p` of the block and
  column `q` that is the perceptron's row formula (`Cert.Layer.mlpRow`) on row `p` of the sum of the two blocks.
-/
import proofs.«116678_j55585466744867_1_alg».proof.Proof.Gen.KernelIdeal.Skeleton
import proofs.«116678_j55585466744867_1_alg».proof.Proof.LibPlainDot
import proofs.«116678_j55585466744867_1_alg».proof.Proof.Layer
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.BodyValue

open Idealize.ShloMosaic Idealize.ShloMosaic.ValueIdx Cert.KernelIdeal Cert.KernelIdeal.Gen

/-- The first kernel's stored block at `(p, q)`. -/
theorem pay0_apply (x0 x1 : Vec Ideal S5000x64 .f32) (x2 : Vec Ideal S64x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = Cert.Layer.mlpRow (fun j : Fin 64 => x0 (ix2 p j) + x1 (ix2 p j)) (fun (j : Fin 64) (k : Fin 128) => x2 (ix2 j k))
          (fun k : Fin 128 => x3 (ix2 (0 : Fin 1) k)) (fun (k : Fin 128) (q' : Fin 128) => x4 (ix2 k q'))
          (fun q' : Fin 128 => x5 (ix2 (0 : Fin 1) q')) q := by
  unfold k0_pay1 Cert.Layer.mlpRow
  -- a cast to the same shape is the identity
  simp only [shapeCast_self]
  -- second layer at (p, q): the rectifier and the bias sum are pointwise, the stretched bias row reads its entry (0, q)
  rw [maximumf_apply, addf_apply, broadcast_apply, broadcastTo_1b_ab_apply]
  refine congrArg₂ max (congrArg₂ (· + ·) ?_ rfl) rfl
  -- the product with w2 into a zero accumulator is the sum over k
  refine (Cert.LibPlainDot.matmul_zero_apply (R := 5000) (K := 128) (C := 128)
    dot_S5000x128_S128x128_S5000x128_1_0_0_1_n_n_wf none _ _ p q).trans ?_
  refine Finset.sum_congr rfl fun k _ => ?_
  -- first layer at (p, k): the narrowings are the identity, then the same pointwise steps
  rw [truncf_apply, truncf_apply, maximumf_apply, addf_apply, broadcast_apply, broadcastTo_1b_ab_apply]
  refine congrArg₂ (· * ·) (congrArg₂ max (congrArg₂ (· + ·) ?_ rfl) rfl) rfl
  -- the product with w1 into a zero accumulator is the sum over j of the summed row times w1
  refine (Cert.LibPlainDot.matmul_zero_apply (R := 5000) (K := 64) (C := 128)
    dot_S5000x64_S64x128_S5000x128_1_0_0_1_n_n_wf none _ _ p k).trans ?_
  refine Finset.sum_congr rfl fun j _ => ?_
  rw [truncf_apply, truncf_apply, addf_apply]

/-- The second kernel's stored block at `(p, q)`. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = Cert.Layer.mlpRow (fun j : Fin 128 => x0 (ix2 p j) + x1 (ix2 p j)) (fun (j : Fin 128) (k : Fin 128) => x2 (ix2 j k))
          (fun k : Fin 128 => x3 (ix2 (0 : Fin 1) k)) (fun (k : Fin 128) (q' : Fin 128) => x4 (ix2 k q'))
          (fun q' : Fin 128 => x5 (ix2 (0 : Fin 1) q')) q := by
  unfold k1_pay1 Cert.Layer.mlpRow
  -- a cast to the same shape is the identity
  simp only [shapeCast_self]
  -- second layer at (p, q): the rectifier and the bias sum are pointwise, the stretched bias row reads its entry (0, q)
  rw [maximumf_apply, addf_apply, broadcast_apply, broadcastTo_1b_ab_apply]
  refine congrArg₂ max (congrArg₂ (· + ·) ?_ rfl) rfl
  -- the product with w2 into a zero accumulator is the sum over k
  refine (Cert.LibPlainDot.matmul_zero_apply (R := 5000) (K := 128) (C := 128)
    dot_S5000x128_S128x128_S5000x128_1_0_0_1_n_n_wf none _ _ p q).trans ?_
  refine Finset.sum_congr rfl fun k _ => ?_
  -- first layer at (p, k): the narrowings are the identity, then the same pointwise steps
  rw [truncf_apply, truncf_apply, maximumf_apply, addf_apply, broadcast_apply, broadcastTo_1b_ab_apply]
  refine congrArg₂ (· * ·) (congrArg₂ max (congrArg₂ (· + ·) ?_ rfl) rfl) rfl
  -- the product with w1 into a zero accumulator is the sum over j of the summed row times w1
  refine (Cert.LibPlainDot.matmul_zero_apply (R := 5000) (K := 128) (C := 128)
    dot_S5000x128_S128x128_S5000x128_1_0_0_1_n_n_wf none _ _ p k).trans ?_
  refine Finset.sum_congr rfl fun j _ => ?_
  rw [truncf_apply, truncf_apply, addf_apply]

end Cert.KernelIdeal.BodyValue

end
-- ==== Proof.Blocks0.lean ====
/-
  The first layer's pallas_call: from its blocks to the whole array.

  The grid has 20 points; point `t` is given rows `5000 t … 5000 t + 4999` of the node array and of the neighbour
  sums, and the whole of both weight matrices and both bias rows, and writes back rows `5000 t … 5000 t + 4999` of
  the result. By the body's value (`BodyValue`) row `p` of what it writes back is the perceptron's row formula on
  row `5000 t + p` of the sum of the two arrays. The twenty row blocks tile the 100000 rows (the block of row `r`
  is `r / 5000`), so after the run the result array is, row by row, that formula of the arrays as the region found
  them. Everything is stated at the region's entry contents `V` as a parameter.
-/
import proofs.«116678_j55585466744867_1_alg».proof.Proof.Gen.KernelIdeal.Frame
import proofs.«116678_j55585466744867_1_alg».proof.Proof.BodyValue
import proofs.«116678_j55585466744867_1_alg».proof.Proof.Layer
import Idealize.ShloMosaic.Lib.Pipeline.Value
import Idealize.ShloMosaic.Lib.ValueIdx
import Idealize.ShloMosaic.Lib.Tactic

set_option maxRecDepth 16384

noncomputable section

open scoped BigOperators

namespace Cert.KernelIdeal.Blocks0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of whole arrays, row by row: entry `(r, q)` is the perceptron's row formula on row `r` of `x + a`. -/
def layerArr (x a : S100000x64.Idx → EReal) (w1 : S64x128.Idx → EReal) (b1 : S1x128.Idx → EReal)
    (w2 : S128x128.Idx → EReal) (b2 : S1x128.Idx → EReal) : S100000x128.Idx → EReal :=
  fun i => Cert.Layer.mlpRow (fun j : Fin 64 => x (ix2 (i 0) j) + a (ix2 (i 0) j)) (fun (j : Fin 64) (k : Fin 128) => w1 (ix2 j k))
    (fun k : Fin 128 => b1 (ix2 (0 : Fin 1) k)) (fun (k : Fin 128) (q : Fin 128) => w2 (ix2 k q))
    (fun q : Fin 128 => b2 (ix2 (0 : Fin 1) q)) (i 1)

/-- The printed index maps over the grid: the two row-blocked inputs and the output sit at block `(t, 0)`, the
    weights and the bias rows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the node block at point `t` is row `5000 t + p` of the node array. -/
theorem blk0_apply (c : Dev nD) (t : Fin cfg0.N) (p : Fin 5000) (j : Fin 64) (hr : t.val * 5000 + p.val < 100000) :
    (iblk0 V c 0 t : S5000x64.Idx → EReal) (ix2 p j) = (V c main_arg0 : S100000x64.Idx → EReal) (ix2 (⟨t.val * 5000 + p.val, hr⟩ : Fin 100000) j) := by
  obtain ⟨e0, e1, -⟩ := idx_facts t
  unfold iblk0
  rw [View.read_apply]
  show (V c main_arg0 : S100000x64.Idx → EReal) _ = _
  refine congrArg _ ?_
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * j.val = j.val; rw [e1]; omega

/-- Row `p` of the neighbour-sum block at point `t` is row `5000 t + p` of the neighbour sums. -/
theorem blk1_apply (c : Dev nD) (t : Fin cfg0.N) (p : Fin 5000) (j : Fin 64) (hr : t.val * 5000 + p.val < 100000) :
    (iblk0 V c 1 t : S5000x64.Idx → EReal) (ix2 p j) = (V c main_v13 : S100000x64.Idx → EReal) (ix2 (⟨t.val * 5000 + p.val, hr⟩ : Fin 100000) j) := by
  obtain ⟨-, -, e0, e1, -⟩ := idx_facts t
  unfold iblk0
  rw [View.read_apply]
  show (V c main_v13 : S100000x64.Idx → EReal) _ = _
  refine congrArg _ ?_
  funext a
  apply Fin.ext
  match a with
  | ⟨0, _⟩ => show win0_1.index t (0 : Fin 2) * 5000 + 1 * p.val = t.val * 5000 + p.val; rw [e0]; omega
  | ⟨1, _⟩ => show win0_1.index t (1 : Fin 2) * 64 + 1 * j.val = j.val; rw [e1]; omega

/-- The first weight matrix's block is the whole matrix at every point. -/
theorem blk2_apply (c : Dev nD) (t : Fin cfg0.N) (j : Fin 64) (k : Fin 128) :
    (iblk0 V c 2 t : S64x128.Idx → EReal) (ix2 j k) = (V c main_arg3 : S64x128.Idx → EReal) (ix2 j k) := by
  obtain ⟨-, -, -, -, e0, e1, -⟩ := idx_facts t
  unfold iblk0
  rw [View.read_apply]
  show (V c main_arg3 : S64x128.Idx → EReal) _ = _
  refine congrArg _ ?_
  funext a
  apply Fin.ext
  match a with
  | ⟨0, _⟩ => show win0_2.index t (0 : Fin 2) * 64 + 1 * j.val = j.val; rw [e0]; omega
  | ⟨1, _⟩ => show win0_2.index t (1 : Fin 2) * 128 + 1 * k.val = k.val; rw [e1]; omega

/-- The first bias row's block is the whole row at every point. -/
theorem blk3_apply (c : Dev nD) (t : Fin cfg0.N) (u : Fin 1) (k : Fin 128) :
    (iblk0 V c 3 t : S1x128.Idx → EReal) (ix2 u k) = (V c main_v14 : S1x128.Idx → EReal) (ix2 u k) := by
  obtain ⟨-, -, -, -, -, -, e0, e1, -⟩ := idx_facts t
  unfold iblk0
  rw [View.read_apply]
  show (V c main_v14 : S1x128.Idx → EReal) _ = _
  refine congrArg _ ?_
  funext a
  apply Fin.ext
  match a with
  | ⟨0, _⟩ => show win0_3.index t (0 : Fin 2) * 1 + 1 * u.val = u.val; rw [e0]; omega
  | ⟨1, _⟩ => show win0_3.index t (1 : Fin 2) * 128 + 1 * k.val = k.val; rw [e1]; omega

/-- The second weight matrix's block is the whole matrix at every point. -/
theorem blk4_apply (c : Dev nD) (t : Fin cfg0.N) (k : Fin 128) (q : Fin 128) :
    (iblk0 V c 4 t : S128x128.Idx → EReal) (ix2 k q) = (V c main_arg5 : S128x128.Idx → EReal) (ix2 k q) := by
  obtain ⟨-, -, -, -, -, -, -, -, e0, e1, -⟩ := idx_facts t
  unfold iblk0
  rw [View.read_apply]
  show (V c main_arg5 : S128x128.Idx → EReal) _ = _
  refine congrArg _ ?_
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The second bias row's block is the whole row at every point. -/
theorem blk5_apply (c : Dev nD) (t : Fin cfg0.N) (u : Fin 1) (k : Fin 128) :
    (iblk0 V c 5 t : S1x128.Idx → EReal) (ix2 u k) = (V c main_v15 : S1x128.Idx → EReal) (ix2 u k) := by
  obtain ⟨-, -, -, -, -, -, -, -, -, -, e0, e1, -⟩ := idx_facts t
  unfold iblk0
  rw [View.read_apply]
  show (V c main_v15 : S1x128.Idx → EReal) _ = _
  refine congrArg _ ?_
  funext a
  apply Fin.ext
  match a with
  | ⟨0, _⟩ => show win0_5.index t (0 : Fin 2) * 1 + 1 * u.val = u.val; rw [e0]; omega
  | ⟨1, _⟩ => show win0_5.index t (1 : Fin 2) * 128 + 1 * k.val = k.val; rw [e1]; omega

/-- WHAT POINT `t` WRITES BACK is block `t` of the layer of the arrays as the region finds them. -/
theorem flushed_eq (c : Dev nD) (t : Fin cfg0.N) :
    (dat0 V c).flushed 6 t = ((cfg0.win 6).blk t).view.read (Elt Ideal)
      (layerArr (V c main_arg0) (V c main_v13) (V c main_arg3) (V c main_v14) (V c main_arg5) (V c main_v15)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz, View.ld_unit_zero (S := S1x128) hz,
    View.ld_unit_zero (S := S128x128) hz]
  have hN : cfg0.N = 20 := N_0
  have ht : t.val < 20 := by have h := t.isLt; omega
  obtain ⟨-, -, -, -, -, -, -, -, -, -, -, -, e0, e1⟩ := idx_facts t
  funext y
  obtain ⟨p, q, rfl⟩ : ∃ (p : Fin 5000) (q : Fin 128), y = ix2 p q := ⟨y 0, y 1, eq_ix2 y⟩
  have hr : t.val * 5000 + p.val < 100000 := by have := p.isLt; omega
  rw [View.read_apply]
  have he : ((cfg0.win 6).blk t).view.emb (ix2 p q) = (ix2 (⟨t.val * 5000 + p.val, hr⟩ : Fin 100000) q : S100000x128.Idx) := by
    funext a
    apply Fin.ext
    match a with
    | ⟨0, _⟩ => show win0_6.index t (0 : Fin 2) * 5000 + 1 * p.val = t.val * 5000 + p.val; rw [e0]; omega
    | ⟨1, _⟩ => show win0_6.index t (1 : Fin 2) * 128 + 1 * q.val = q.val; rw [e1]; omega
  rw [he]
  refine (BodyValue.pay0_apply (iblk0 V c 0 t) (iblk0 V c 1 t) (iblk0 V c 2 t) (iblk0 V c 3 t) (iblk0 V c 4 t) (iblk0 V c 5 t) p q).trans ?_
  unfold layerArr
  simp only [blk0_apply V c t _ _ hr, blk1_apply V c t _ _ hr, blk2_apply V c t, blk3_apply V c t, blk4_apply V c t, blk5_apply V c t]
  rfl

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The twenty row blocks cover the array: row `r` is in the block of point `r / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have htl : (i 0).val / 5000 < cfg0.N := by rw [hN]; omega
  refine ⟨⟨(i 0).val / 5000, htl⟩, flush0_6 _, ?_⟩
  rw [mem_blk]
  obtain ⟨-, -, -, -, -, -, -, -, -, -, -, -, e0, e1⟩ := idx_facts ⟨(i 0).val / 5000, htl⟩
  intro a
  match a with
  | ⟨0, _⟩ =>
    show win0_6.index ⟨(i 0).val / 5000, htl⟩ (0 : Fin 2) * 5000 ≤ (i 0).val ∧ (i 0).val < win0_6.index ⟨(i 0).val / 5000, htl⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, htl⟩ (1 : Fin 2) * 128 ≤ (i 1).val ∧ (i 1).val < win0_6.index ⟨(i 0).val / 5000, htl⟩ (1 : Fin 2) * 128 + 128
    rw [e1]; omega

/-- THE RESULT ARRAY after the region: the layer of the arrays as the region found them. -/
theorem final (c : Dev nD) :
    (dat0 V c).arrAt 6 cfg0.N = layerArr (V c main_arg0) (V c main_v13) (V c main_arg3) (V c main_v14) (V c main_arg5) (V c main_v15) :=
  (dat0 V c).arrAt_eq_of_cover 6 _ (fun t _ => flushed_eq V c t) cover

end Cert.KernelIdeal.Blocks0

end
-- ==== Proof.Blocks1.lean ====
/-
  The second layer's pallas_call: from its blocks to the whole array.

  The grid has 20 points; point `t` is given rows `5000 t … 5000 t + 4999` of the node array and of the neighbour
  sums, and the whole of both weight matrices and both bias rows, and writes back rows `5000 t … 5000 t + 4999` of
  the result. By the body's value (`BodyValue`) row `p` of what it writes back is the perceptron's row formula on
  row `5000 t + p` of the sum of the two arrays. The twenty row blocks tile the 100000 rows (the block of row `r`
  is `r / 5000`), so after the run the result array is, row by row, that formula of the arrays as the region found
  them. Everything is stated at the region's entry contents `V` as a parameter.
-/
import proofs.«116678_j55585466744867_1_alg».proof.Proof.Gen.KernelIdeal.Frame
import proofs.«116678_j55585466744867_1_alg».proof.Proof.BodyValue
import proofs.«116678_j55585466744867_1_alg».proof.Proof.Layer
import Idealize.ShloMosaic.Lib.Pipeline.Value
import Idealize.ShloMosaic.Lib.ValueIdx
import Idealize.ShloMosaic.Lib.Tactic

set_option maxRecDepth 16384

noncomputable section

open scoped BigOperators

namespace Cert.KernelIdeal.Blocks1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of whole arrays, row by row: entry `(r, q)` is the perceptron's row formula on row `r` of `x + a`. -/
def layerArr (x a : S100000x128.Idx → EReal) (w1 : S128x128.Idx → EReal) (b1 : S1x128.Idx → EReal)
    (w2 : S128x128.Idx → EReal) (b2 : S1x128.Idx → EReal) : S100000x128.Idx → EReal :=
  fun i => Cert.Layer.mlpRow (fun j : Fin 128 => x (ix2 (i 0) j) + a (ix2 (i 0) j)) (fun (j : Fin 128) (k : Fin 128) => w1 (ix2 j k))
    (fun k : Fin 128 => b1 (ix2 (0 : Fin 1) k)) (fun (k : Fin 128) (q : Fin 128) => w2 (ix2 k q))
    (fun q : Fin 128 => b2 (ix2 (0 : Fin 1) q)) (i 1)

/-- The printed index maps over the grid: the two row-blocked inputs and the output sit at block `(t, 0)`, the
    weights and the bias rows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the node block at point `t` is row `5000 t + p` of the node array. -/
theorem blk0_apply (c : Dev nD) (t : Fin cfg1.N) (p : Fin 5000) (j : Fin 128) (hr : t.val * 5000 + p.val < 100000) :
    (iblk1 V c 0 t : S5000x128.Idx → EReal) (ix2 p j) = (V c main_v16 : S100000x128.Idx → EReal) (ix2 (⟨t.val * 5000 + p.val, hr⟩ : Fin 100000) j) := by
  obtain ⟨e0, e1, -⟩ := idx_facts t
  unfold iblk1
  rw [View.read_apply]
  show (V c main_v16 : S100000x128.Idx → EReal) _ = _
  refine congrArg _ ?_
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

/-- Row `p` of the neighbour-sum block at point `t` is row `5000 t + p` of the neighbour sums. -/
theorem blk1_apply (c : Dev nD) (t : Fin cfg1.N) (p : Fin 5000) (j : Fin 128) (hr : t.val * 5000 + p.val < 100000) :
    (iblk1 V c 1 t : S5000x128.Idx → EReal) (ix2 p j) = (V c main_v26 : S100000x128.Idx → EReal) (ix2 (⟨t.val * 5000 + p.val, hr⟩ : Fin 100000) j) := by
  obtain ⟨-, -, e0, e1, -⟩ := idx_facts t
  unfold iblk1
  rw [View.read_apply]
  show (V c main_v26 : S100000x128.Idx → EReal) _ = _
  refine congrArg _ ?_
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * j.val = j.val; rw [e1]; omega

/-- The first weight matrix's block is the whole matrix at every point. -/
theorem blk2_apply (c : Dev nD) (t : Fin cfg1.N) (j : Fin 128) (k : Fin 128) :
    (iblk1 V c 2 t : S128x128.Idx → EReal) (ix2 j k) = (V c main_arg7 : S128x128.Idx → EReal) (ix2 j k) := by
  obtain ⟨-, -, -, -, e0, e1, -⟩ := idx_facts t
  unfold iblk1
  rw [View.read_apply]
  show (V c main_arg7 : S128x128.Idx → EReal) _ = _
  refine congrArg _ ?_
  funext a
  apply Fin.ext
  match a with
  | ⟨0, _⟩ => show win1_2.index t (0 : Fin 2) * 128 + 1 * j.val = j.val; rw [e0]; omega
  | ⟨1, _⟩ => show win1_2.index t (1 : Fin 2) * 128 + 1 * k.val = k.val; rw [e1]; omega

/-- The first bias row's block is the whole row at every point. -/
theorem blk3_apply (c : Dev nD) (t : Fin cfg1.N) (u : Fin 1) (k : Fin 128) :
    (iblk1 V c 3 t : S1x128.Idx → EReal) (ix2 u k) = (V c main_v27 : S1x128.Idx → EReal) (ix2 u k) := by
  obtain ⟨-, -, -, -, -, -, e0, e1, -⟩ := idx_facts t
  unfold iblk1
  rw [View.read_apply]
  show (V c main_v27 : S1x128.Idx → EReal) _ = _
  refine congrArg _ ?_
  funext a
  apply Fin.ext
  match a with
  | ⟨0, _⟩ => show win1_3.index t (0 : Fin 2) * 1 + 1 * u.val = u.val; rw [e0]; omega
  | ⟨1, _⟩ => show win1_3.index t (1 : Fin 2) * 128 + 1 * k.val = k.val; rw [e1]; omega

/-- The second weight matrix's block is the whole matrix at every point. -/
theorem blk4_apply (c : Dev nD) (t : Fin cfg1.N) (k : Fin 128) (q : Fin 128) :
    (iblk1 V c 4 t : S128x128.Idx → EReal) (ix2 k q) = (V c main_arg9 : S128x128.Idx → EReal) (ix2 k q) := by
  obtain ⟨-, -, -, -, -, -, -, -, e0, e1, -⟩ := idx_facts t
  unfold iblk1
  rw [View.read_apply]
  show (V c main_arg9 : S128x128.Idx → EReal) _ = _
  refine congrArg _ ?_
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The second bias row's block is the whole row at every point. -/
theorem blk5_apply (c : Dev nD) (t : Fin cfg1.N) (u : Fin 1) (k : Fin 128) :
    (iblk1 V c 5 t : S1x128.Idx → EReal) (ix2 u k) = (V c main_v28 : S1x128.Idx → EReal) (ix2 u k) := by
  obtain ⟨-, -, -, -, -, -, -, -, -, -, e0, e1, -⟩ := idx_facts t
  unfold iblk1
  rw [View.read_apply]
  show (V c main_v28 : S1x128.Idx → EReal) _ = _
  refine congrArg _ ?_
  funext a
  apply Fin.ext
  match a with
  | ⟨0, _⟩ => show win1_5.index t (0 : Fin 2) * 1 + 1 * u.val = u.val; rw [e0]; omega
  | ⟨1, _⟩ => show win1_5.index t (1 : Fin 2) * 128 + 1 * k.val = k.val; rw [e1]; omega

/-- WHAT POINT `t` WRITES BACK is block `t` of the layer of the arrays as the region finds them. -/
theorem flushed_eq (c : Dev nD) (t : Fin cfg1.N) :
    (dat1 V c).flushed 6 t = ((cfg1.win 6).blk t).view.read (Elt Ideal)
      (layerArr (V c main_v16) (V c main_v26) (V c main_arg7) (V c main_v27) (V c main_arg9) (V c main_v28)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz,
    View.ld_unit_zero (S := S128x128) hz]
  have hN : cfg1.N = 20 := N_1
  have ht : t.val < 20 := by have h := t.isLt; omega
  obtain ⟨-, -, -, -, -, -, -, -, -, -, -, -, e0, e1⟩ := idx_facts t
  funext y
  obtain ⟨p, q, rfl⟩ : ∃ (p : Fin 5000) (q : Fin 128), y = ix2 p q := ⟨y 0, y 1, eq_ix2 y⟩
  have hr : t.val * 5000 + p.val < 100000 := by have := p.isLt; omega
  rw [View.read_apply]
  have he : ((cfg1.win 6).blk t).view.emb (ix2 p q) = (ix2 (⟨t.val * 5000 + p.val, hr⟩ : Fin 100000) q : S100000x128.Idx) := by
    funext a
    apply Fin.ext
    match a with
    | ⟨0, _⟩ => show win1_6.index t (0 : Fin 2) * 5000 + 1 * p.val = t.val * 5000 + p.val; rw [e0]; omega
    | ⟨1, _⟩ => show win1_6.index t (1 : Fin 2) * 128 + 1 * q.val = q.val; rw [e1]; omega
  rw [he]
  refine (BodyValue.pay1_apply (iblk1 V c 0 t) (iblk1 V c 1 t) (iblk1 V c 2 t) (iblk1 V c 3 t) (iblk1 V c 4 t) (iblk1 V c 5 t) p q).trans ?_
  unfold layerArr
  simp only [blk0_apply V c t _ _ hr, blk1_apply V c t _ _ hr, blk2_apply V c t, blk3_apply V c t, blk4_apply V c t, blk5_apply V c t]
  rfl

/-- An index of the result array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The twenty row blocks cover the array: row `r` is in the block of point `r / 5000`. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have htl : (i 0).val / 5000 < cfg1.N := by rw [hN]; omega
  refine ⟨⟨(i 0).val / 5000, htl⟩, flush1_6 _, ?_⟩
  rw [mem_blk]
  obtain ⟨-, -, -, -, -, -, -, -, -, -, -, -, e0, e1⟩ := idx_facts ⟨(i 0).val / 5000, htl⟩
  intro a
  match a with
  | ⟨0, _⟩ =>
    show win1_6.index ⟨(i 0).val / 5000, htl⟩ (0 : Fin 2) * 5000 ≤ (i 0).val ∧ (i 0).val < win1_6.index ⟨(i 0).val / 5000, htl⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, htl⟩ (1 : Fin 2) * 128 ≤ (i 1).val ∧ (i 1).val < win1_6.index ⟨(i 0).val / 5000, htl⟩ (1 : Fin 2) * 128 + 128
    rw [e1]; omega

/-- THE RESULT ARRAY after the region: the layer of the arrays as the region found them. -/
theorem final (c : Dev nD) :
    (dat1 V c).arrAt 6 cfg1.N = layerArr (V c main_v16) (V c main_v26) (V c main_arg7) (V c main_v27) (V c main_arg9) (V c main_v28) :=
  (dat1 V c).arrAt_eq_of_cover 6 _ (fun t _ => flushed_eq V c t) cover

end Cert.KernelIdeal.Blocks1

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«116678_j55585466744867_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.RefLayer.lean ====
/-
  The reference's perceptron layer, read at an index.

  The reference applies to a node array `z` the host operations: product with `w1`, add the bias row `b1`, rectify,
  product with `w2`, add `b2`, rectify. Read at row `r`, column `c`, that is the perceptron's row formula
  (`Cert.Layer.mlpRow`) on row `r` of `z`: the host product is the plain sum over the contracted axis, a bias
  vector set up as a row and stretched over the rows reads its entry `c`, a rectifier is the maximum with zero.
-/
import proofs.«116678_j55585466744867_1_alg».proof.ReferenceIdeal
import proofs.«116678_j55585466744867_1_alg».proof.Proof.Gen.ReferenceIdeal
import proofs.«116678_j55585466744867_1_alg».proof.Proof.LibHostDot
import proofs.«116678_j55585466744867_1_alg».proof.Proof.LibColumn
import proofs.«116678_j55585466744867_1_alg».proof.Proof.Layer
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.ReferenceIdeal.RefLayer

open Idealize.ShloMosaic Idealize.ShloMosaic.ValueIdx Cert.ReferenceIdeal Cert.ReferenceIdeal.Gen

/-- The reference's layer on a node array of 64 features. -/
def mlp64 (z : FVec Ideal S100000x64 .f32) (w1 : FVec Ideal S64x128 .f32) (b1 : FVec Ideal S128 .f32)
    (w2 : FVec Ideal S128x128 .f32) (b2 : FVec Ideal S128 .f32) : FVec Ideal S100000x128 .f32 :=
  maximumf (addf (Host.dotGeneral (F := Ideal) dot_S100000x128_S128x128_S100000x128_1_0_0_1_n_n none (maximumf (addf (Host.dotGeneral (F := Ideal) dot_S100000x64_S64x128_S100000x128_1_0_0_1_n_n none z w1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) w2) (broadcastInDim S100000x128 ![0, 1] bcast_S1x128_S100000x128_0_1 (broadcastInDim S1x128 ![1] bcast_S128_S1x128_1 b2))) (broadcastInDim S100000x128 ![] bcast_S_S100000x128 (constant (F := Ideal) S_ .f32 0x00000000#32))

/-- The reference's layer on a node array of 128 features. -/
def mlp128 (z : FVec Ideal S100000x128 .f32) (w1 : FVec Ideal S128x128 .f32) (b1 : FVec Ideal S128 .f32)
    (w2 : FVec Ideal S128x128 .f32) (b2 : FVec Ideal S128 .f32) : FVec Ideal S100000x128 .f32 :=
  maximumf (addf (Host.dotGeneral (F := Ideal) dot_S100000x128_S128x128_S100000x128_1_0_0_1_n_n none (maximumf (addf (Host.dotGeneral (F := Ideal) dot_S100000x128_S128x128_S100000x128_1_0_0_1_n_n none z w1) (broadcastInDim S100000x128 ![0, 1] bcast_S1x128_S100000x128_0_1 (broadcastInDim S1x128 ![1] bcast_S128_S1x128_1 b1))) (broadcastInDim S100000x128 ![] bcast_S_S100000x128 (constant (F := Ideal) S_ .f32 0x00000000#32))) w2) (broadcastInDim S100000x128 ![0, 1] bcast_S1x128_S100000x128_0_1 (broadcastInDim S1x128 ![1] bcast_S128_S1x128_1 b2))) (broadcastInDim S100000x128 ![] bcast_S_S100000x128 (constant (F := Ideal) S_ .f32 0x00000000#32))

/-- The 64-feature layer at row `r`, column `c`. -/
theorem mlp64_apply (z : FVec Ideal S100000x64 .f32) (w1 : FVec Ideal S64x128 .f32) (b1 : FVec Ideal S128 .f32)
    (w2 : FVec Ideal S128x128 .f32) (b2 : FVec Ideal S128 .f32) (r : Fin 100000) (c : Fin 128) :
    mlp64 z w1 b1 w2 b2 (ix2 r c)
      = Cert.Layer.mlpRow (fun j : Fin 64 => z (ix2 r j)) (fun (j : Fin 64) (k : Fin 128) => w1 (ix2 j k))
          (fun k : Fin 128 => b1 (ix1 k)) (fun (k : Fin 128) (q : Fin 128) => w2 (ix2 k q)) (fun q : Fin 128 => b2 (ix1 q)) c := by
  unfold mlp64 Cert.Layer.mlpRow
  -- second layer at (r, c): the rectifier and the bias sum are pointwise; the bias vector set up as a row and stretched
  -- over the rows reads its entry c; the scalar zero stretched over the array reads its one entry
  rw [maximumf_apply, addf_apply, Cert.LibColumn.bcastInDim_1b_ab_apply, Cert.LibColumn.bcastInDim_b_1b_apply,
    Cert.LibColumn.bcastInDim_scalar_apply _ _ _ ix0, constant_apply]
  refine congrArg₂ max (congrArg₂ (· + ·) ?_ rfl) rfl
  -- the host product with w2 is the sum over k
  refine (Cert.LibHostDot.hostDot_apply (R := 100000) (K := 128) (C := 128)
    dot_S100000x128_S128x128_S100000x128_1_0_0_1_n_n_wf none _ _ r c).trans ?_
  refine Finset.sum_congr rfl fun k _ => ?_
  -- first layer at (r, k): the same pointwise steps
  rw [maximumf_apply, addf_apply, Cert.LibColumn.bcastInDim_1b_ab_apply, Cert.LibColumn.bcastInDim_b_1b_apply,
    Cert.LibColumn.bcastInDim_scalar_apply _ _ _ ix0, constant_apply]
  refine congrArg₂ (· * ·) (congrArg₂ max (congrArg₂ (· + ·) ?_ rfl) rfl) rfl
  -- the host product with w1 is the sum over j
  exact Cert.LibHostDot.hostDot_apply (R := 100000) (K := 64) (C := 128)
    dot_S100000x64_S64x128_S100000x128_1_0_0_1_n_n_wf none _ _ r k

/-- The 128-feature layer at row `r`, column `c`. -/
theorem mlp128_apply (z : FVec Ideal S100000x128 .f32) (w1 : FVec Ideal S128x128 .f32) (b1 : FVec Ideal S128 .f32)
    (w2 : FVec Ideal S128x128 .f32) (b2 : FVec Ideal S128 .f32) (r : Fin 100000) (c : Fin 128) :
    mlp128 z w1 b1 w2 b2 (ix2 r c)
      = Cert.Layer.mlpRow (fun j : Fin 128 => z (ix2 r j)) (fun (j : Fin 128) (k : Fin 128) => w1 (ix2 j k))
          (fun k : Fin 128 => b1 (ix1 k)) (fun (k : Fin 128) (q : Fin 128) => w2 (ix2 k q)) (fun q : Fin 128 => b2 (ix1 q)) c := by
  unfold mlp128 Cert.Layer.mlpRow
  -- second layer at (r, c): the rectifier and the bias sum are pointwise; the bias vector set up as a row and stretched
  -- over the rows reads its entry c; the scalar zero stretched over the array reads its one entry
  rw [maximumf_apply, addf_apply, Cert.LibColumn.bcastInDim_1b_ab_apply, Cert.LibColumn.bcastInDim_b_1b_apply,
    Cert.LibColumn.bcastInDim_scalar_apply _ _ _ ix0, constant_apply]
  refine congrArg₂ max (congrArg₂ (· + ·) ?_ rfl) rfl
  -- the host product with w2 is the sum over k
  refine (Cert.LibHostDot.hostDot_apply (R := 100000) (K := 128) (C := 128)
    dot_S100000x128_S128x128_S100000x128_1_0_0_1_n_n_wf none _ _ r c).trans ?_
  refine Finset.sum_congr rfl fun k _ => ?_
  -- first layer at (r, k): the same pointwise steps
  rw [maximumf_apply, addf_apply, Cert.LibColumn.bcastInDim_1b_ab_apply, Cert.LibColumn.bcastInDim_b_1b_apply,
    Cert.LibColumn.bcastInDim_scalar_apply _ _ _ ix0, constant_apply]
  refine congrArg₂ (· * ·) (congrArg₂ max (congrArg₂ (· + ·) ?_ rfl) rfl) rfl
  -- the host product with w1 is the sum over j
  exact Cert.LibHostDot.hostDot_apply (R := 100000) (K := 128) (C := 128)
    dot_S100000x128_S128x128_S100000x128_1_0_0_1_n_n_wf none _ _ r k

end Cert.ReferenceIdeal.RefLayer

end
-- ==== Proof.LayerBridge.lean ====
/-
  The kernel's layer of whole arrays is the reference's layer.

  Row by row both are the perceptron's row formula on the sum of the node array and its neighbour sums. The only
  difference in form is the bias: the kernel is handed each bias vector cast to a `1 × 128` row and reads entry
  `(0, k)`, the reference reads entry `k` of the vector; a vector cast to a row holds at `(0, k)` its entry `k`.
-/
import proofs.«116678_j55585466744867_1_alg».proof.Proof.Blocks0
import proofs.«116678_j55585466744867_1_alg».proof.Proof.Blocks1
import proofs.«116678_j55585466744867_1_alg».proof.Proof.RefLayer
import Idealize.ShloMosaic.Lib.ValueIdx
import Idealize.ShloMosaic.Lib.ValueLayout
import Idealize.ShloMosaic.Lib.Pipeline.Value

noncomputable section

namespace Cert.LayerBridge

open Idealize.ShloMosaic Idealize.ShloMosaic.ValueIdx

/-- The first layer: 64 features in. -/
theorem layer0_eq (x a : (⟨Cert.KernelIdeal.S100000x64, .f32⟩ : BufTy).Contents (Elt Ideal)) (w1 : (⟨Cert.KernelIdeal.S64x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal))
    (h : Cert.KernelIdeal.S128.ShapeCasts Cert.KernelIdeal.S1x128) :
    Cert.KernelIdeal.Blocks0.layerArr x a w1 (shapeCast Cert.KernelIdeal.S1x128 b1 h) w2 (shapeCast Cert.KernelIdeal.S1x128 b2 h)
      = Cert.ReferenceIdeal.RefLayer.mlp64 (addf x a) w1 b1 w2 b2 := by
  funext i
  -- every index of the result array is a row r and a column q
  obtain ⟨r, q, rfl⟩ : ∃ (r : Fin 100000) (q : Fin 128), i = ix2 r q := ⟨i 0, i 1, eq_ix2 i⟩
  -- the reference's layer at (r, q) is the row formula on row r of x + a
  refine Eq.trans ?_ (Cert.ReferenceIdeal.RefLayer.mlp64_apply (addf x a) w1 b1 w2 b2 r q).symm
  unfold Cert.KernelIdeal.Blocks0.layerArr
  -- a vector cast to a row holds at (0, k) its entry k; the sum of the two arrays is taken entry by entry
  simp only [shapeCast_a_1a_apply, addf_apply]

/-- The second layer: 128 features in. -/
theorem layer1_eq (x a : (⟨Cert.KernelIdeal.S100000x128, .f32⟩ : BufTy).Contents (Elt Ideal)) (w1 : (⟨Cert.KernelIdeal.S128x128, .f32⟩ : BufTy).Contents (Elt Ideal)) (b1 : (⟨Cert.KernelIdeal.S128, .f32⟩ : BufTy).Contents (Elt Ideal))
    (w2 : (⟨Cert.KernelIdeal.S128x128, .f32⟩ : BufTy).Contents (Elt Ideal)) (b2 : (⟨Cert.KernelIdeal.S128, .f32⟩ : BufTy).Contents (Elt Ideal))
    (h : Cert.KernelIdeal.S128.ShapeCasts Cert.KernelIdeal.S1x128) :
    Cert.KernelIdeal.Blocks1.layerArr x a w1 (shapeCast Cert.KernelIdeal.S1x128 b1 h) w2 (shapeCast Cert.KernelIdeal.S1x128 b2 h)
      = Cert.ReferenceIdeal.RefLayer.mlp128 (addf x a) w1 b1 w2 b2 := by
  funext i
  -- every index of the result array is a row r and a column q
  obtain ⟨r, q, rfl⟩ : ∃ (r : Fin 100000) (q : Fin 128), i = ix2 r q := ⟨i 0, i 1, eq_ix2 i⟩
  -- the reference's layer at (r, q) is the row formula on row r of x + a
  refine Eq.trans ?_ (Cert.ReferenceIdeal.RefLayer.mlp128_apply (addf x a) w1 b1 w2 b2 r q).symm
  unfold Cert.KernelIdeal.Blocks1.layerArr
  -- a vector cast to a row holds at (0, k) its entry k; the sum of the two arrays is taken entry by entry
  simp only [shapeCast_a_1a_apply, addf_apply]

end Cert.LayerBridge

end
-- ==== Proof.RefNet.lean ====
/-
  The reference's whole computation as a composition of a few functions.

  From the edge list the reference reads a row of source nodes (negative entries wrapped by the number of nodes) and
  a row of destination nodes; the NEIGHBOUR SUM of a node array gathers its rows at the sources and adds them into
  the rows named by the destinations; a layer is the perceptron of the array plus its neighbour sum; the POOLING
  adds the rows of each graph, divides by the graph's node count (at least one), multiplies by the last weight
  column and adds the last bias. The reference's result is pooling ∘ layer ∘ layer, and its generated result term
  is literally that composition: the definitions below unfold to it.
-/
import proofs.«116678_j55585466744867_1_alg».proof.Proof.Gen.ReferenceIdeal.Run
import proofs.«116678_j55585466744867_1_alg».proof.Proof.RefLayer

set_option maxRecDepth 16384

noncomputable section

namespace Cert.ReferenceIdeal.RefNet

open Idealize.ShloMosaic Idealize.ShloMosaic.TcCoe Idealize.SL.Sem Cert.ReferenceIdeal Cert.ReferenceIdeal.Gen Cert.ReferenceIdeal.RefLayer

/-- The edge list's row of source nodes. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edge list's row of destination nodes. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The gather's start indices: a negative source wrapped by the number of nodes, one index per edge. -/
def srcIdx (s : (⟨S1600000, .i32⟩ : BufTy).Contents (Elt Ideal)) : (⟨S1600000x1, .i32⟩ : BufTy).Contents (Elt Ideal) :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The scatter's indices: one destination per edge. -/
def dstIdx (d : (⟨S1600000, .i32⟩ : BufTy).Contents (Elt Ideal)) : (⟨S1600000x1, .i32⟩ : BufTy).Contents (Elt Ideal) :=
  broadcastInDim S1600000x1 ![0] bcast_S1600000_S1600000x1_0 d

/-- The neighbour sum of a 64-feature node array. -/
def nbr64 (x : FVec Ideal S100000x64 .f32) (s d : (⟨S1600000, .i32⟩ : BufTy).Contents (Elt Ideal)) : FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (dstIdx d) (Host.gather gather_S100000x64_S1600000x1_S1600000x64_1_0_n_n_0_1_164 x (srcIdx s))

/-- The neighbour sum of a 128-feature node array. -/
def nbr128 (x : FVec Ideal S100000x128 .f32) (s d : (⟨S1600000, .i32⟩ : BufTy).Contents (Elt Ideal)) : FVec Ideal S100000x128 .f32 :=
  Host.scatterAdd (F := Ideal) scatter_S100000x128_S1600000x1_S1600000x128_1_0_0_1 (broadcastInDim S100000x128 ![] bcast_S_S100000x128 (constant (F := Ideal) S_ .f32 0x00000000#32)) (dstIdx d) (Host.gather gather_S100000x128_S1600000x1_S1600000x128_1_0_n_n_0_1_1128 x (srcIdx s))

/-- Mean pooling over graphs followed by the last linear map. -/
def pool (h : FVec Ideal S100000x128 .f32) (b : (⟨S100000, .i32⟩ : BufTy).Contents (Elt Ideal)) (wfc : FVec Ideal S128x1 .f32) (bfc : FVec Ideal S1 .f32) : FVec Ideal S256 .f32 :=
  shapeCast _ (addf (Host.dotGeneral (F := Ideal) dot_S256x128_S128x1_S256x1_1_0_0_1_n_n none (Host.divf (F := Ideal) (Host.scatterAdd (F := Ideal) scatter_S256x128_S100000x1_S100000x128_1_0_0_1 (broadcastInDim S256x128 ![] bcast_S_S256x128 (constant (F := Ideal) S_ .f32 0x00000000#32)) (broadcastInDim S100000x1 ![0] bcast_S100000_S100000x1_0 b) h) (broadcastInDim S256x128 ![0, 1] bcast_S256x1_S256x128_0_1 (broadcastInDim S256x1 ![0] bcast_S256_S256x1_0 (maximumf (Host.scatterAdd (F := Ideal) scatter_S256_S100000x1_S100000_n_0_0_1 (broadcastInDim S256 ![] bcast_S_S256 (constant (F := Ideal) S_ .f32 0x00000000#32)) (broadcastInDim S100000x1 ![0] bcast_S100000_S100000x1_0 b) (broadcastInDim S100000 ![] bcast_S_S100000 (constant (F := Ideal) S_ .f32 0x3F800000#32))) (broadcastInDim S256 ![] bcast_S_S256 (constant (F := Ideal) S_ .f32 0x3F800000#32)))))) wfc) (broadcastInDim S256x1 ![0, 1] bcast_S1x1_S256x1_0_1 (broadcastInDim S1x1 ![1] bcast_S1_S1x1_1 bfc))) shapeCasts_S256x1_S256

/-- The first layer's result. -/
def hidden1 (x : FVec Ideal S100000x64 .f32) (e : (⟨S2x1600000, .i32⟩ : BufTy).Contents (Elt Ideal)) (w1a : FVec Ideal S64x128 .f32) (b1a : FVec Ideal S128 .f32)
    (w1b : FVec Ideal S128x128 .f32) (b1b : FVec Ideal S128 .f32) : FVec Ideal S100000x128 .f32 :=
  mlp64 (addf x (nbr64 x (srcRow e) (dstRow e))) w1a b1a w1b b1b

/-- The second layer's result from the first's. -/
def hidden2 (h1 : FVec Ideal S100000x128 .f32) (e : (⟨S2x1600000, .i32⟩ : BufTy).Contents (Elt Ideal)) (w2a : FVec Ideal S128x128 .f32) (b2a : FVec Ideal S128 .f32)
    (w2b : FVec Ideal S128x128 .f32) (b2b : FVec Ideal S128 .f32) : FVec Ideal S100000x128 .f32 :=
  mlp128 (addf h1 (nbr128 h1 (srcRow e) (dstRow e))) w2a b2a w2b b2b

/-- The whole network. -/
def net (x : FVec Ideal S100000x64 .f32) (e : (⟨S2x1600000, .i32⟩ : BufTy).Contents (Elt Ideal)) (b : (⟨S100000, .i32⟩ : BufTy).Contents (Elt Ideal))
    (w1a : FVec Ideal S64x128 .f32) (b1a : FVec Ideal S128 .f32) (w1b : FVec Ideal S128x128 .f32) (b1b : FVec Ideal S128 .f32)
    (w2a : FVec Ideal S128x128 .f32) (b2a : FVec Ideal S128 .f32) (w2b : FVec Ideal S128x128 .f32) (b2b : FVec Ideal S128 .f32)
    (wfc : FVec Ideal S128x1 .f32) (bfc : FVec Ideal S1 .f32) : FVec Ideal S256 .f32 :=
  pool (hidden2 (hidden1 x e w1a b1a w1b b1b) e w2a b2a w2b b2b) b wfc bfc

/-- The reference's generated result term is the network of its arguments. -/
theorem res_eq (m : (ℓ : Loc nD τ sig) → Buf (Elt Ideal) ℓ) (c : Dev nD) :
    Cert.ReferenceIdeal.Value.res_main_v62 (F := Ideal) m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.Value.res_main_v62 net pool hidden2 hidden1 nbr128 nbr64 srcIdx dstIdx srcRow dstRow mlp128 mlp64
  rfl

end Cert.ReferenceIdeal.RefNet

end
-- ==== Proof.KernelNet.lean ====
/-
  The idealized kernel's result as the network of its arguments.

  The buffer contents at the five segment boundaries are computed one stretch at a time. The host operations before
  the first pallas_call leave the source and destination rows of the edge list, the neighbour sum of the node
  array and the two bias vectors cast to rows; the first pallas_call leaves, row by row, the perceptron of the node
  array plus its neighbour sum (the blocks-to-array step), which is the reference's first layer; the second stretch
  and the second pallas_call repeat this on the first layer's result; the last stretch is the pooling. A buffer no
  segment writes keeps its launch contents. The gather, the scatter-add and the pooling are the same host
  operations in both programs and are never opened.
-/
import proofs.«116678_j55585466744867_1_alg».proof.Proof.Gen.KernelIdeal.Frame
import proofs.«116678_j55585466744867_1_alg».proof.Proof.Blocks0
import proofs.«116678_j55585466744867_1_alg».proof.Proof.Blocks1
import proofs.«116678_j55585466744867_1_alg».proof.Proof.LayerBridge
import proofs.«116678_j55585466744867_1_alg».proof.Proof.RefNet
import Idealize.ShloMosaic.Lib.StableHlo.Run

set_option maxRecDepth 16384

noncomputable section

namespace Cert.KernelIdeal.KernelNet

open Cert.KernelIdeal Cert.KernelIdeal.Gen
open Idealize.ShloMosaic Idealize.ShloMosaic.TcCoe Idealize.SL.Sem Idealize.ShloMosaic.StableHlo
open Cert.ReferenceIdeal.RefNet (srcRow dstRow srcIdx dstIdx nbr64 nbr128 pool hidden1 hidden2 net)

variable (m : (ℓ : Loc nD τ sig) → Buf (Elt Ideal) ℓ) (ρ : Dev nD → PrngReg) (c : Dev nD)

/-! ## Before the first pallas_call -/

theorem W1_arg0 : W1 m ρ c (Proc.devRef .tc main_arg0) = (m ((c : Thread nD τ).loc main_arg0)) := by
  show StableHlo.after hostOps0 (W0 m ρ c) (Proc.devRef .tc main_arg0) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg7 : W1 m ρ c (Proc.devRef .tc main_arg7) = (m ((c : Thread nD τ).loc main_arg7)) := by
  show StableHlo.after hostOps0 (W0 m ρ c) (Proc.devRef .tc main_arg7) = _
  after_results <;> rfl
theorem W1_arg8 : W1 m ρ c (Proc.devRef .tc main_arg8) = (m ((c : Thread nD τ).loc main_arg8)) := by
  show StableHlo.after hostOps0 (W0 m ρ c) (Proc.devRef .tc main_arg8) = _
  after_results <;> rfl
theorem W1_arg9 : W1 m ρ c (Proc.devRef .tc main_arg9) = (m ((c : Thread nD τ).loc main_arg9)) := by
  show StableHlo.after hostOps0 (W0 m ρ c) (Proc.devRef .tc main_arg9) = _
  after_results <;> rfl
theorem W1_arg10 : W1 m ρ c (Proc.devRef .tc main_arg10) = (m ((c : Thread nD τ).loc main_arg10)) := by
  show StableHlo.after hostOps0 (W0 m ρ c) (Proc.devRef .tc main_arg10) = _
  after_results <;> rfl
theorem W1_arg11 : W1 m ρ c (Proc.devRef .tc main_arg11) = (m ((c : Thread nD τ).loc main_arg11)) := by
  show StableHlo.after hostOps0 (W0 m ρ c) (Proc.devRef .tc main_arg11) = _
  after_results <;> rfl
theorem W1_arg12 : W1 m ρ c (Proc.devRef .tc main_arg12) = (m ((c : Thread nD τ).loc main_arg12)) := by
  show StableHlo.after hostOps0 (W0 m ρ c) (Proc.devRef .tc main_arg12) = _
  after_results <;> rfl

/-- The source row of the edge list. -/
theorem W1_v1 : W1 m ρ c (Proc.devRef .tc main_v1) = srcRow (m ((c : Thread nD τ).loc main_arg1)) := by
  show StableHlo.after hostOps0 (W0 m ρ c) (Proc.devRef .tc main_v1) = _
  after_results <;> (unfold srcRow; rfl)

/-- The destination row of the edge list. -/
theorem W1_v3 : W1 m ρ c (Proc.devRef .tc main_v3) = dstRow (m ((c : Thread nD τ).loc main_arg1)) := by
  show StableHlo.after hostOps0 (W0 m ρ c) (Proc.devRef .tc main_v3) = _
  after_results <;> (unfold dstRow; rfl)

/-- The neighbour sum of the node array. -/
theorem W1_v13 : W1 m ρ c (Proc.devRef .tc main_v13) = nbr64 (m ((c : Thread nD τ).loc main_arg0)) (srcRow (m ((c : Thread nD τ).loc main_arg1))) (dstRow (m ((c : Thread nD τ).loc main_arg1))) := by
  show StableHlo.after hostOps0 (W0 m ρ c) (Proc.devRef .tc main_v13) = _
  after_results <;> (unfold nbr64 srcIdx dstIdx srcRow dstRow; rfl)

/-- The first bias vector as a row. -/
theorem W1_v14 : W1 m ρ c (Proc.devRef .tc main_v14) = shapeCast S1x128 (m ((c : Thread nD τ).loc main_arg4)) shapeCasts_S128_S1x128 := by
  show StableHlo.after hostOps0 (W0 m ρ c) (Proc.devRef .tc main_v14) = _
  after_results <;> rfl

/-- The second bias vector as a row. -/
theorem W1_v15 : W1 m ρ c (Proc.devRef .tc main_v15) = shapeCast S1x128 (m ((c : Thread nD τ).loc main_arg6)) shapeCasts_S128_S1x128 := by
  show StableHlo.after hostOps0 (W0 m ρ c) (Proc.devRef .tc main_v15) = _
  after_results <;> rfl

/-! ## After the first pallas_call -/

/-- THE FIRST LAYER: the result array of the first pallas_call is the reference's first layer of the arguments. -/
theorem W2_v16 : W2 m ρ c (Proc.devRef .tc main_v16)
    = hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ?_
  rw [Blocks0.final (V1 m ρ) c]
  show Blocks0.layerArr (W1 m ρ c (Proc.devRef .tc main_arg0)) (W1 m ρ c (Proc.devRef .tc main_v13)) (W1 m ρ c (Proc.devRef .tc main_arg3))
    (W1 m ρ c (Proc.devRef .tc main_v14)) (W1 m ρ c (Proc.devRef .tc main_arg5)) (W1 m ρ c (Proc.devRef .tc main_v15)) = _
  rw [W1_arg0, W1_v13, W1_arg3, W1_v14, W1_arg5, W1_v15]
  unfold hidden1
  exact Cert.LayerBridge.layer0_eq _ _ _ _ _ _ _

theorem W2_v1 : W2 m ρ c (Proc.devRef .tc main_v1) = srcRow (m ((c : Thread nD τ).loc main_arg1)) :=
  (W2_of_ne m ρ c main_v1 (by decide)).trans (W1_v1 m ρ c)
theorem W2_v3 : W2 m ρ c (Proc.devRef .tc main_v3) = dstRow (m ((c : Thread nD τ).loc main_arg1)) :=
  (W2_of_ne m ρ c main_v3 (by decide)).trans (W1_v3 m ρ c)
theorem W2_arg2 : W2 m ρ c (Proc.devRef .tc main_arg2) = (m ((c : Thread nD τ).loc main_arg2)) :=
  (W2_of_ne m ρ c main_arg2 (by decide)).trans (W1_arg2 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)
theorem W2_arg12 : W2 m ρ c (Proc.devRef .tc main_arg12) = (m ((c : Thread nD τ).loc main_arg12)) :=
  (W2_of_ne m ρ c main_arg12 (by decide)).trans (W1_arg12 m ρ c)

/-! ## Before the second pallas_call -/

theorem W3_v16 : W3 m ρ c (Proc.devRef .tc main_v16) = W2 m ρ c (Proc.devRef .tc main_v16) := by
  show StableHlo.after hostOps1 (W2 m ρ c) (Proc.devRef .tc main_v16) = _
  after_results <;> rfl

/-- The neighbour sum of the first layer's result. -/
theorem W3_v26 : W3 m ρ c (Proc.devRef .tc main_v26)
    = nbr128 (W2 m ρ c (Proc.devRef .tc main_v16)) (W2 m ρ c (Proc.devRef .tc main_v1)) (W2 m ρ c (Proc.devRef .tc main_v3)) := by
  show StableHlo.after hostOps1 (W2 m ρ c) (Proc.devRef .tc main_v26) = _
  generalize W2 m ρ c = Wv
  after_results <;> (unfold nbr128 srcIdx dstIdx; rfl)

theorem W3_v27 : W3 m ρ c (Proc.devRef .tc main_v27) = shapeCast S1x128 (W2 m ρ c (Proc.devRef .tc main_arg8)) shapeCasts_S128_S1x128 := by
  show StableHlo.after hostOps1 (W2 m ρ c) (Proc.devRef .tc main_v27) = _
  after_results <;> rfl

theorem W3_v28 : W3 m ρ c (Proc.devRef .tc main_v28) = shapeCast S1x128 (W2 m ρ c (Proc.devRef .tc main_arg10)) shapeCasts_S128_S1x128 := by
  show StableHlo.after hostOps1 (W2 m ρ c) (Proc.devRef .tc main_v28) = _
  after_results <;> rfl
theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = _
  after_results <;> rfl
theorem W3_arg9 : W3 m ρ c (Proc.devRef .tc main_arg9) = (m ((c : Thread nD τ).loc main_arg9)) := by
  refine Eq.trans ?_ (W2_arg9 m ρ c)
  show StableHlo.after hostOps1 (W2 m ρ c) (Proc.devRef .tc main_arg9) = _
  after_results <;> rfl
theorem W3_arg2 : W3 m ρ c (Proc.devRef .tc main_arg2) = (m ((c : Thread nD τ).loc main_arg2)) := by
  refine Eq.trans ?_ (W2_arg2 m ρ c)
  show StableHlo.after hostOps1 (W2 m ρ c) (Proc.devRef .tc main_arg2) = _
  after_results <;> rfl
theorem W3_arg11 : W3 m ρ c (Proc.devRef .tc main_arg11) = (m ((c : Thread nD τ).loc main_arg11)) := by
  refine Eq.trans ?_ (W2_arg11 m ρ c)
  show StableHlo.after hostOps1 (W2 m ρ c) (Proc.devRef .tc main_arg11) = _
  after_results <;> rfl
theorem W3_arg12 : W3 m ρ c (Proc.devRef .tc main_arg12) = (m ((c : Thread nD τ).loc main_arg12)) := by
  refine Eq.trans ?_ (W2_arg12 m ρ c)
  show StableHlo.after hostOps1 (W2 m ρ c) (Proc.devRef .tc main_arg12) = _
  after_results <;> rfl

/-! ## After the second pallas_call -/

/-- THE SECOND LAYER: the result array of the second pallas_call is the reference's second layer of the first. -/
theorem W4_v29 : W4 m ρ c (Proc.devRef .tc main_v29)
    = hidden2 (hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)))
        (m ((c : Thread nD τ).loc main_arg1)) (m ((c : Thread nD τ).loc main_arg7)) (m ((c : Thread nD τ).loc main_arg8)) (m ((c : Thread nD τ).loc main_arg9)) (m ((c : Thread nD τ).loc main_arg10)) := by
  refine (W4_arr m ρ c 6).trans ?_
  rw [Blocks1.final (V3 m ρ) c]
  show Blocks1.layerArr (W3 m ρ c (Proc.devRef .tc main_v16)) (W3 m ρ c (Proc.devRef .tc main_v26)) (W3 m ρ c (Proc.devRef .tc main_arg7))
    (W3 m ρ c (Proc.devRef .tc main_v27)) (W3 m ρ c (Proc.devRef .tc main_arg9)) (W3 m ρ c (Proc.devRef .tc main_v28)) = _
  rw [W3_v16, W3_v26, W3_arg7, W3_v27, W3_arg9, W3_v28, W2_v16, W2_v1, W2_v3, W2_arg8, W2_arg10]
  unfold hidden2
  exact Cert.LayerBridge.layer1_eq _ _ _ _ _ _ _
theorem W4_arg2 : W4 m ρ c (Proc.devRef .tc main_arg2) = (m ((c : Thread nD τ).loc main_arg2)) :=
  (W4_of_ne m ρ c main_arg2 (by decide)).trans (W3_arg2 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)

/-! ## The result -/

/-- The pooling of whatever the second pallas_call left. -/
theorem W5_v46 : W5 m ρ c (Proc.devRef .tc main_v46)
    = pool (W4 m ρ c (Proc.devRef .tc main_v29)) (W4 m ρ c (Proc.devRef .tc main_arg2)) (W4 m ρ c (Proc.devRef .tc main_arg11)) (W4 m ρ c (Proc.devRef .tc main_arg12)) := by
  show StableHlo.after hostOps2 (W4 m ρ c) (Proc.devRef .tc main_v46) = _
  generalize W4 m ρ c = Wv
  after_results_simp
  unfold Cert.ReferenceIdeal.RefNet.pool
  rfl

/-- THE KERNEL'S RESULT is the network of its arguments. -/
theorem result : W5 m ρ c (Proc.devRef .tc main_v46)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W5_v46, W4_v29, W4_arg2, W4_arg11, W4_arg12]
  rfl

end Cert.KernelIdeal.KernelNet

end
-- ==== Proof.lean ====
/-
  A two-layer graph network on 100000 nodes and 1600000 edges, with mean pooling over 256 graphs.

  Each layer takes a node array, adds to every node the sum of its in-neighbours' rows (a gather along the edge
  list's sources, a scatter-add along its destinations), and applies a perceptron with rectifiers row by row:
      relu (relu ((x + nbr x) · W1 + b1) · W2 + b2).
  The kernel runs the gather and the scatter-add on the host, exactly as the reference does, and the perceptron as a
  pallas_call over 20 blocks of 5000 rows, the matrix products on half-precision copies of their operands; the
  pooling and the last linear map are again the reference's host operations.

  On the extended reals a change of float format is the identity, a matrix product into a zero accumulator and the
  host's product are the same plain sum over the contracted axis, and a row of the result depends only on the same
  row of the input, so the twenty row blocks the kernel writes are the rows of the reference's whole-array layer.
  Hence both programs compute one function of their arguments (`RefNet.net`): the reference's generated result term
  unfolds to it, and the kernel's result buffer is computed to be it segment by segment. No law of arithmetic beyond
  the definitions is used, so the precondition (finite inputs) is never opened. The ideal pass rewrote nothing, so
  `preserves` is `True`. The frames of the two kernels are the generated ones; the reference's frame is its
  generated run with the result dropped.
-/
import proofs.«116678_j55585466744867_1_alg».proof.Defs
import proofs.«116678_j55585466744867_1_alg».proof.Proof.Gen.Kernel
import proofs.«116678_j55585466744867_1_alg».proof.Proof.Gen.Kernel.Skeleton
import proofs.«116678_j55585466744867_1_alg».proof.Proof.Gen.Kernel.Launch
import proofs.«116678_j55585466744867_1_alg».proof.Proof.Gen.Kernel.Points
import proofs.«116678_j55585466744867_1_alg».proof.Proof.Gen.Kernel.Frame
import proofs.«116678_j55585466744867_1_alg».proof.Proof.Gen.KernelIdeal
import proofs.«116678_j55585466744867_1_alg».proof.Proof.Gen.KernelIdeal.Skeleton
import proofs.«116678_j55585466744867_1_alg».proof.Proof.Gen.KernelIdeal.Launch
import proofs.«116678_j55585466744867_1_alg».proof.Proof.Gen.KernelIdeal.Points
import proofs.«116678_j55585466744867_1_alg».proof.Proof.Gen.KernelIdeal.Frame
import proofs.«116678_j55585466744867_1_alg».proof.Proof.Gen.ReferenceIdeal
import proofs.«116678_j55585466744867_1_alg».proof.Proof.Gen.ReferenceIdeal.Run
import proofs.«116678_j55585466744867_1_alg».proof.Proof.Gen.Pre_finite_inputs
import proofs.«116678_j55585466744867_1_alg».proof.Proof.RunValue
import proofs.«116678_j55585466744867_1_alg».proof.Proof.KernelNet
import proofs.«116678_j55585466744867_1_alg».proof.Proof.RefNet
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both idealized programs end with the network of the arguments in
    their result buffer: the kernel by its run read segment by segment, the reference by its generated run, whose
    result term unfolds to the same composition. -/
theorem algebraic : Cert.algebraic_KernelIdeal_ReferenceIdeal := by
  intro m ρ m' ρ' _ hagree
  refine ⟨fun c => Cert.ReferenceIdeal.RefNet.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KernelNet.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.RefNet.res_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
